-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_scale" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8x2048x256 .f32) (main_arg1 : FVec F S8x2048x256 .f32) (main_arg2 : FVec F S8x2048x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x256 : Shape := ⟨2, ![1, 256]⟩
abbrev S1x512x256 : Shape := ⟨3, ![1, 512, 256]⟩
abbrev S1x2048x256 : Shape := ⟨3, ![1, 2048, 256]⟩
abbrev S2048x256 : Shape := ⟨2, ![2048, 256]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S8x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x512x256, .f32⟩
  | .local _ .vmem, ⟨13, _⟩ => ⟨S1x512x256, .f32⟩
  | .local _ .vmem, ⟨14, _⟩ => ⟨S2048x256, .bf16⟩
  | .local _ .vmem, ⟨15, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1x256_S512x256 : S1x256.Broadcasts S512x256
  reduces_S512x2048_S512 : S512x2048.Reduces [1] S512
  shapeCasts_S512_S512x1 : S512.ShapeCasts S512x1
  broadcasts_S512x1_S512x2048 : S512x1.Broadcasts S512x2048
  broadcasts_S512x1_S512x256 : S512x1.Broadcasts S512x256
  shapeCasts_S512x256_S1x512x256 : S512x256.ShapeCasts S1x512x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .f32 = 32 ∨ (Rect.block (s := S8x2048x256) S1x2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x256.size a ≤ S8x2048x256.size a
  hwx0_9 : ∀ i : grid0.Coords, EltTy.bits .f32 = 32 ∨ (Rect.block (s := S8x2048x256) S1x512x256.size (cc0_transform_9 i) (hinb0_9 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8x2048x256, .f32⟩
  | .hbm, ⟨10, _⟩ => ⟨S1x1x256, .f32⟩
  | .hbm, ⟨11, _⟩ => ⟨S8x2048x256, .f32⟩
  | .hbm, ⟨12, _⟩ => ⟨S8x2048x256, .f32⟩
  | .hbm, ⟨13, _⟩ => ⟨S8x2048x256, .f32⟩
  | .hbm, ⟨14, _⟩ => ⟨S1x1x256, .f32⟩
  | .hbm, ⟨15, _⟩ => ⟨S8x2048x256, .f32⟩
  | .hbm, ⟨16, _⟩ => ⟨S8x2048x256, .f32⟩
  | .hbm, ⟨17, _⟩ => ⟨S8x2048x256, .f32⟩
  | .hbm, ⟨18, _⟩ => ⟨S1x1x256, .f32⟩
  | .hbm, ⟨19, _⟩ => ⟨S8x2048x256, .f32⟩
  | .hbm, ⟨20, _⟩ => ⟨S8x2048x256, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.FiniteInputs.lean ====
/-
  The precondition `finite_inputs`, read back at the exact instance: when the printed predicate is
  all ones over nine argument arrays of extended reals, every entry of every array is a real number.
  The predicate is a conjunction of nine `jnp.all (|a| < +inf)`: each is an and-reduction over all axes of the
  element comparison `max x (-x) < ⊤`. An and-reduction that is one met only ones; and `max x (-x) < ⊤` excludes
  both `x = ⊤` and `x = ⊥` (where `-x = ⊤`), which leaves the reals.
-/
import proofs.«147305_j49606872269322_2_alg».proof.Defs
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx
open Cert.Pre_finite_inputs

/-- The scalar shape has one index. -/
instance subsingleton_S_ : Subsingleton S_.Idx := ⟨fun a b => funext fun d => d.elim0⟩

/-- The f32 pattern `0x7F800000` denotes `+∞`. -/
theorem ofBits_inf_f32 : Ideal.ofBits .f32 0x7F800000#32 = (⊤ : EReal) := by
  simp [Ideal.ofBits, Ideal.ieee]

/-- The element fact: `|x| < +∞` (with `|x| = max x (-x)`) says `x` is a real number. -/
theorem real_of_abs_lt (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    simp [Ideal.cmp, hn] at h
  induction x using EReal.rec with
  | bot => simp at hlt
  | coe r => exact ⟨r, rfl⟩
  | top => simp at hlt

/-- One `jnp.all (|a| < +inf)`, generic in the shape: an and-reduction over all axes of the comparison of `|a|`
    with the broadcast `+inf` that is one says every entry of `a` is real. -/
theorem real_of_all {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
          (cmpf .olt (Host.absf a) (broadcastInDim s ![] hb (constant (F := Ideal) S_ .f32 0x7F800000#32)))
          (constantI S_ 1 1#1) hr h0 ix0 = 1#1) (i : s.Idx) : ∃ r : ℝ, a i = (r : EReal) :=
  real_of_abs_lt (a i) (Host.reduce_andi_all _ _ hr h0 ix0 e i)

/-- A conjunction of two scalar `i1` words that is one: both are one. -/
theorem andi_ix0 (x y : IVec S_ 1) (h : andi x y ix0 = 1#1) : x ix0 = 1#1 ∧ y ix0 = 1#1 :=
  IntOp.andi_eq_one.1 h

/-- THE PRECONDITION DECODED: when `finite_inputs` of nine arrays of extended reals is all ones, every entry of
    every array is a real number. The predicate's one word is a left-nested conjunction of the nine and-reductions;
    it is split from the outside in, and each conjunct is read by `real_of_all`. -/
theorem real_of_fn [Facts]
    (a0 a1 a2 : FVec Ideal S8x2048x256 .f32) (a3 : FVec Ideal S256x256 .f32) (a4 : FVec Ideal S256 .f32)
    (a5 : FVec Ideal S256x256 .f32) (a6 : FVec Ideal S256 .f32) (a7 : FVec Ideal S256x256 .f32)
    (a8 : FVec Ideal S256 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have e := congrFun h ix0
  dsimp only [Cert.Pre_finite_inputs.fn, Cert.Pre_finite_inputs.fn_part1, Cert.Pre_finite_inputs.fn_part2] at e
  obtain ⟨e, h8⟩ := andi_ix0 _ _ e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨e, h2⟩ := andi_ix0 _ _ e
  obtain ⟨h0, h1⟩ := andi_ix0 _ _ e
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7,
    real_of_all _ _ _ a8 h8⟩

end Cert.Proof.FiniteInputs

end
-- ==== Proof.Spec.lean ====
/-
  Cross-attention over three linear layers, as ONE function of the nine argument arrays, index by index, on the
  extended reals.

  For a batch `b`, a query row `q` and an output column `e`:
    Q b q ·  = query b q · against the rows of Wq, plus bq        (a linear layer: x ↦ x · Wᵀ + β)
    K b k ·  = key   b k · against the rows of Wk, plus bk
    V b k ·  = value b k · against the rows of Wv, plus bv
    s k      = (∑ e, Q b q e · K b k e) · r                        the scaled score of key row k, r the reciprocal scale
    m        = the largest of the s k (folded from -∞)
    p k      = exp (s k - m)
    out      = (∑ k, p k · V b k e) / (∑ k, p k)

  The softmax weights p k / ∑ p are never formed here: the division is taken once, after the weighted sum
  (`attend`). `attendRef` is the other arrangement — each weight divided first — and `SoftmaxLaw` joins the two.
-/
import Idealize.ShloMosaic.PureOps.Ideal
import Idealize.ShloMosaic.PureOps.Ideal.Laws
import Idealize.ShloMosaic.Lib.ValueIdx

noncomputable section

namespace Cert.CrossAttn

open Idealize.ShloMosaic Idealize.ShloMosaic.ValueIdx

/-- An activation array: batch × sequence position × feature. -/
abbrev Act : Type := (⟨3, ![8, 2048, 256]⟩ : Shape).Idx → EReal
/-- A weight matrix: output feature × input feature. -/
abbrev Wt : Type := (⟨2, ![256, 256]⟩ : Shape).Idx → EReal
/-- A bias vector, one entry per output feature. -/
abbrev Bias : Type := (⟨1, ![256]⟩ : Shape).Idx → EReal

/-- A linear layer at one entry: row `s` of batch `b` of `X` against ROW `e` of `W`, plus the bias. -/
def linear (X : Act) (W : Wt) (β : Bias) (b : Fin 8) (s : Fin 2048) (e : Fin 256) : EReal :=
  (∑ d : Fin 256, X (ix3 b s d) * W (ix2 e d)) + β (ix1 e)

/-- The reciprocal of the score scale, as the exact rational it is read as. -/
def invScale : EReal := ((1048576 / 11863283 : ℝ) : EReal)

/-- The largest entry of a row of scores, folded from the float -∞. -/
def rowMax (S : Fin 2048 → EReal) : EReal :=
  (Finset.univ : Finset (Fin 2048)).fold max (Ideal.ofBits .f32 0xFF800000#32) S

/-- The unnormalised softmax weight of entry `k`: the exponential of its distance below the row's maximum. -/
def expw (S : Fin 2048 → EReal) (k : Fin 2048) : EReal := Ideal.exp (S k - rowMax S)

/-- The normaliser of a row: the sum of its unnormalised weights. -/
def rowSum (S : Fin 2048 → EReal) : EReal := ∑ k : Fin 2048, expw S k

/-- Attention of one row of scores `S` over one column of values `V`, dividing ONCE, after the weighted sum. -/
def attend (S V : Fin 2048 → EReal) : EReal := Ideal.div (∑ k : Fin 2048, expw S k * V k) (rowSum S)

/-- The same with every weight normalised BEFORE the weighted sum. -/
def attendRef (S V : Fin 2048 → EReal) : EReal := ∑ k : Fin 2048, Ideal.div (expw S k) (rowSum S) * V k

/-- The scaled score of query row `q` against key row `k` of batch `b`, over the two projected arrays. -/
def scores (query key : Act) (Wq : Wt) (bq : Bias) (Wk : Wt) (bk : Bias) (b : Fin 8) (q k : Fin 2048) : EReal :=
  (∑ e : Fin 256, linear query Wq bq b q e * linear key Wk bk b k e) * invScale

/-- THE RESULT ARRAY as one function of the nine arguments. -/
def G (query key value : Act) (Wq : Wt) (bq : Bias) (Wk : Wt) (bk : Bias) (Wv : Wt) (bv : Bias) : Act := fun i =>
  attend (fun k => scores query key Wq bq Wk bk (i 0) (i 1) k) (fun k => linear value Wv bv (i 0) k (i 2))

end Cert.CrossAttn

end
-- ==== Proof.SoftmaxLaw.lean ====
/-
  The softmax law, as pure mathematics over no program.

  For a row of REAL scores the row maximum is a real number, every unnormalised weight exp (s k - m) is a positive
  real, and so the normaliser L = ∑ exp (s k - m) is a positive real.  Division by L is then multiplication by the
  nonnegative finite constant 1 / L, and such a constant distributes over a finite sum of ARBITRARY extended reals.
  Hence dividing every weight first and dividing the weighted sum once give the same value, whatever the values are
  (they may be infinite).  The last part shows that a linear layer and a scaled score of real arrays are real, and
  joins the two arrangements on the whole result array.
-/
import proofs.«147305_j49606872269322_2_alg».proof.Proof.Spec

noncomputable section

namespace Cert.CrossAttn

open Idealize.ShloMosaic Idealize.ShloMosaic.ValueIdx

/-- The float -∞ denotes the extended real ⊥. -/
theorem negInf_eq_bot : Ideal.ofBits .f32 0xFF800000#32 = (⊥ : EReal) := by
  simp [Ideal.ofBits, Ideal.ieee]

/-- A fold of `max` from ⊥ over real entries is ⊥ on the empty set and a real number otherwise. -/
theorem fold_max_real (s : Fin 2048 → ℝ) (t : Finset (Fin 2048)) :
    (t = ∅ ∧ t.fold max (⊥ : EReal) (fun k => (s k : EReal)) = ⊥) ∨
      ∃ m : ℝ, t.fold max (⊥ : EReal) (fun k => (s k : EReal)) = (m : EReal) := by
  classical
  induction t using Finset.induction_on with
  | empty => exact Or.inl ⟨rfl, Finset.fold_empty⟩
  | insert a t ha ih =>
    refine Or.inr ?_
    rw [Finset.fold_insert ha]
    rcases ih with ⟨_, h⟩ | ⟨m, h⟩
    · exact ⟨s a, by rw [h, max_eq_left bot_le]⟩
    · exact ⟨max (s a) m, by rw [h]; exact (EReal.coe_strictMono.monotone.map_max).symm⟩

/-- The maximum of a row of real scores is a real number. -/
theorem rowMax_real (s : Fin 2048 → ℝ) : ∃ m : ℝ, rowMax (fun k => (s k : EReal)) = (m : EReal) := by
  unfold rowMax
  rw [negInf_eq_bot]
  rcases fold_max_real s Finset.univ with ⟨h, _⟩ | h
  · exact absurd h (Finset.univ_nonempty (α := Fin 2048)).ne_empty
  · exact h

/-- The inclusion of the reals in the extended reals commutes with finite sums. -/
theorem coe_finset_sum {ι : Type*} (t : Finset ι) (f : ι → ℝ) :
    ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A nonnegative finite constant distributes over a finite sum of arbitrary extended reals. -/
theorem sum_mul_of_nonneg {ι : Type*} (t : Finset ι) (a : ι → EReal) (c : EReal) (h0 : 0 ≤ c) (hc : c ≠ ⊤) :
    (∑ k ∈ t, a k) * c = ∑ k ∈ t, a k * c := by
  classical
  induction t using Finset.induction_on with
  | empty => simp
  | insert i t hi ih =>
    rw [Finset.sum_insert hi, Finset.sum_insert hi, EReal.right_distrib_of_nonneg_of_ne_top h0 hc, ih]

/-- Dividing every weight first, or dividing the weighted sum once: the same value for a row of real scores,
    whatever the values are. -/
theorem attendRef_eq_attend (S V : Fin 2048 → EReal) (hS : ∀ k, ∃ r : ℝ, S k = (r : EReal)) :
    attendRef S V = attend S V := by
  choose s hs using hS
  obtain rfl : S = fun k => (s k : EReal) := funext hs
  obtain ⟨m, hm⟩ := rowMax_real s
  -- every unnormalised weight is the real exp (s k - m)
  have hw : ∀ k, expw (fun k => (s k : EReal)) k = ((Real.exp (s k - m) : ℝ) : EReal) := by
    intro k
    show Ideal.exp (((s k : ℝ) : EReal) - rowMax (fun k => (s k : EReal))) = _
    rw [hm, ← EReal.coe_sub, Ideal.exp_coe]
  -- the normaliser is the positive real L
  have hL : rowSum (fun k => (s k : EReal)) = ((∑ k : Fin 2048, Real.exp (s k - m) : ℝ) : EReal) := by
    unfold rowSum
    rw [← coe_finset_sum]
    exact Finset.sum_congr rfl (fun k _ => hw k)
  have hpos : (0 : ℝ) < ∑ k : Fin 2048, Real.exp (s k - m) :=
    Finset.sum_pos (fun k _ => Real.exp_pos _) Finset.univ_nonempty
  set L : ℝ := ∑ k : Fin 2048, Real.exp (s k - m) with hLdef
  have hc0 : (0 : EReal) ≤ ((1 / L : ℝ) : EReal) := by
    exact_mod_cast (one_div_pos.mpr hpos).le
  have hct : ((1 / L : ℝ) : EReal) ≠ ⊤ := EReal.coe_ne_top _
  unfold attendRef attend
  rw [hL, Ideal.div_coe hpos.ne', sum_mul_of_nonneg _ _ _ hc0 hct]
  refine Finset.sum_congr rfl (fun k _ => ?_)
  rw [Ideal.div_coe hpos.ne', mul_right_comm]

/-- A linear layer of real arrays is real at every entry. -/
theorem linear_real (X : Act) (W : Wt) (β : Bias) (hX : ∀ i, ∃ r : ℝ, X i = (r : EReal))
    (hW : ∀ i, ∃ r : ℝ, W i = (r : EReal)) (hβ : ∀ i, ∃ r : ℝ, β i = (r : EReal))
    (b : Fin 8) (s : Fin 2048) (e : Fin 256) : ∃ r : ℝ, linear X W β b s e = (r : EReal) := by
  choose x hx using hX
  choose w hw using hW
  choose c hc using hβ
  refine ⟨(∑ d : Fin 256, x (ix3 b s d) * w (ix2 e d)) + c (ix1 e), ?_⟩
  unfold linear
  rw [EReal.coe_add, ← coe_finset_sum, hc]
  congr 1
  refine Finset.sum_congr rfl (fun d _ => ?_)
  rw [hx, hw, EReal.coe_mul]

/-- A scaled score of real arrays is real. -/
theorem scores_real (query key : Act) (Wq : Wt) (bq : Bias) (Wk : Wt) (bk : Bias)
    (hquery : ∀ i, ∃ r : ℝ, query i = (r : EReal)) (hkey : ∀ i, ∃ r : ℝ, key i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (b : Fin 8) (q k : Fin 2048) : ∃ r : ℝ, scores query key Wq bq Wk bk b q k = (r : EReal) := by
  choose u hu using fun e => linear_real query Wq bq hquery hWq hbq b q e
  choose v hv using fun e => linear_real key Wk bk hkey hWk hbk b k e
  refine ⟨(∑ e : Fin 256, u e * v e) * (1048576 / 11863283 : ℝ), ?_⟩
  unfold scores invScale
  rw [EReal.coe_mul, ← coe_finset_sum]
  congr 1
  refine Finset.sum_congr rfl (fun e _ => ?_)
  rw [hu, hv, EReal.coe_mul]

/-- The two arrangements of the division agree on the whole result array, for real argument arrays of the two
    score projections; the values may be anything. -/
theorem Gref_eq_G (query key value : Act) (Wq : Wt) (bq : Bias) (Wk : Wt) (bk : Bias) (Wv : Wt) (bv : Bias)
    (hquery : ∀ i, ∃ r : ℝ, query i = (r : EReal)) (hkey : ∀ i, ∃ r : ℝ, key i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal)) :
    (fun i : (⟨3, ![8, 2048, 256]⟩ : Shape).Idx =>
        attendRef (fun k => scores query key Wq bq Wk bk (i 0) (i 1) k)
          (fun k => linear value Wv bv (i 0) k (i 2))) =
      G query key value Wq bq Wk bk Wv bv := by
  funext i
  exact attendRef_eq_attend _ _
    (fun k => scores_real query key Wq bq Wk bk hquery hkey hWq hbq hWk hbk (i 0) (i 1) k)

end Cert.CrossAttn

end
-- ==== Proof.RefValue.lean ====
/-
  The reference's result array, index by index, on the extended reals.

  The reference computes three linear layers, the scaled scores of every query row against every key row, a softmax
  along the key axis and the weighted sum of the projected values. Each stage is read at an index and identified
  with the specification's function of the same name:

    linear layer     a contraction over the input feature, plus the bias broadcast along batch and position
    scaled score     the contraction over the projected feature, DIVIDED by the float 0x413504F3 = 11863283 / 2^20,
                     which is the product with the reciprocal 2^20 / 11863283 (a nonzero real divisor)
    row maximum      a fold of max over the key axis from the float -∞, joined once more with that same -∞: the
                     fold already lies above its initial value, so the join changes nothing
    weight           exp (score - row maximum)
    row sum          0 plus the sum of the weights along the key axis
    result           the sum over key rows of (weight / row sum) times the projected value

  Every step is an identity on all extended reals: no finiteness is used.
-/
import proofs.«147305_j49606872269322_2_alg».proof.Proof.Gen.ReferenceIdeal.Read
import proofs.«147305_j49606872269322_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.CrossAttn.Ref

open Cert.ReferenceIdeal Cert.ReferenceIdeal.Gen Cert.ReferenceIdeal.Read Idealize.ShloMosaic Idealize.ShloMosaic.ValueIdx
open Cert.CrossAttn

/-- An activation array of the reference. -/
abbrev ActC : Type := (⟨S8x2048x256, .f32⟩ : BufTy).Contents (Elt Ideal)
/-- A weight matrix of the reference. -/
abbrev WtC : Type := (⟨S256x256, .f32⟩ : BufTy).Contents (Elt Ideal)
/-- A bias vector of the reference. -/
abbrev BiasC : Type := (⟨S256, .f32⟩ : BufTy).Contents (Elt Ideal)

/-! ## The scale -/

/-- The float 0x413504F3 (sign +, exponent 2^3, fraction 1 + 3474675 / 2^23) is the real 11863283 / 2^20. -/
theorem ofBits_scale : Ideal.ofBits .f32 0x413504F3#32 = ((11863283 / 1048576 : ℝ) : EReal) := by
  simp [Ideal.ofBits, Ideal.ieee, -EReal.coe_mul]; norm_num

/-- Dividing by that float is multiplying by the specification's reciprocal scale. -/
theorem div_scale (x : EReal) : Ideal.div x (Ideal.ofBits .f32 0x413504F3#32) = x * invScale := by
  rw [ofBits_scale, Ideal.div_coe (by norm_num) x]
  unfold invScale
  congr 2
  norm_num

/-! ## The three linear layers -/

/-- The query projection at an index is the specification's linear layer of the query array. -/
theorem linear_q (x0 : ActC) (x3 : WtC) (x4 : BiasC) (j : S8x2048x256.Idx) :
    val_main_v3 (F := Ideal) x0 x3 x4 j = linear x0 x3 x4 (j 0) (j 1) (j 2) := by
  have el : ∀ k : Fin 256, lidx_main_v0 j k = ix3 (j 0) (j 1) k := fun k =>
    funext fun a => Fin.ext (by match a with | ⟨0, _⟩ => rfl | ⟨1, _⟩ => rfl | ⟨2, _⟩ => rfl)
  have er : ∀ k : Fin 256, ridx_main_v0 j k = ix2 (j 2) k := fun k =>
    funext fun a => Fin.ext (by match a with | ⟨0, _⟩ => rfl | ⟨1, _⟩ => rfl)
  have eb : idx_main_v1 (idx_main_v2 j) = ix1 (j 2) :=
    funext fun a => Fin.ext (by match a with | ⟨0, _⟩ => rfl)
  rw [val_main_v3_apply, val_main_v0_apply, val_main_v2_apply, val_main_v1_apply]
  simp only [Ideal.addf_def, el, er, eb]
  rfl

/-- The key projection at an index is the specification's linear layer of the key array. -/
theorem linear_k (x1 : ActC) (x5 : WtC) (x6 : BiasC) (j : S8x2048x256.Idx) :
    val_main_v7 (F := Ideal) x1 x5 x6 j = linear x1 x5 x6 (j 0) (j 1) (j 2) := by
  have el : ∀ k : Fin 256, lidx_main_v4 j k = ix3 (j 0) (j 1) k := fun k =>
    funext fun a => Fin.ext (by match a with | ⟨0, _⟩ => rfl | ⟨1, _⟩ => rfl | ⟨2, _⟩ => rfl)
  have er : ∀ k : Fin 256, ridx_main_v4 j k = ix2 (j 2) k := fun k =>
    funext fun a => Fin.ext (by match a with | ⟨0, _⟩ => rfl | ⟨1, _⟩ => rfl)
  have eb : idx_main_v5 (idx_main_v6 j) = ix1 (j 2) :=
    funext fun a => Fin.ext (by match a with | ⟨0, _⟩ => rfl)
  rw [val_main_v7_apply, val_main_v4_apply, val_main_v6_apply, val_main_v5_apply]
  simp only [Ideal.addf_def, el, er, eb]
  rfl

/-- The value projection at an index is the specification's linear layer of the value array. -/
theorem linear_v (x2 : ActC) (x7 : WtC) (x8 : BiasC) (j : S8x2048x256.Idx) :
    val_main_v11 (F := Ideal) x2 x7 x8 j = linear x2 x7 x8 (j 0) (j 1) (j 2) := by
  have el : ∀ k : Fin 256, lidx_main_v8 j k = ix3 (j 0) (j 1) k := fun k =>
    funext fun a => Fin.ext (by match a with | ⟨0, _⟩ => rfl | ⟨1, _⟩ => rfl | ⟨2, _⟩ => rfl)
  have er : ∀ k : Fin 256, ridx_main_v8 j k = ix2 (j 2) k := fun k =>
    funext fun a => Fin.ext (by match a with | ⟨0, _⟩ => rfl | ⟨1, _⟩ => rfl)
  have eb : idx_main_v9 (idx_main_v10 j) = ix1 (j 2) :=
    funext fun a => Fin.ext (by match a with | ⟨0, _⟩ => rfl)
  rw [val_main_v11_apply, val_main_v8_apply, val_main_v10_apply, val_main_v9_apply]
  simp only [Ideal.addf_def, el, er, eb]
  rfl

/-! ## The scaled scores -/

/-- The raw score of a query row against a key row: the contraction of the two projections over the feature. -/
theorem score_raw (x0 x1 : ActC) (x3 : WtC) (x4 : BiasC) (x5 : WtC) (x6 : BiasC) (i : S8x2048x2048.Idx) :
    val_main_v12 (F := Ideal) x0 x1 x3 x4 x5 x6 i
      = ∑ e : Fin 256, linear x0 x3 x4 (i 0) (i 1) e * linear x1 x5 x6 (i 0) (i 2) e := by
  rw [val_main_v12_apply]
  refine Finset.sum_congr rfl fun e _ => ?_
  rw [linear_q, linear_k]
  rfl

/-- The score divided by the scale is the specification's scaled score. -/
theorem score_scaled (x0 x1 : ActC) (x3 : WtC) (x4 : BiasC) (x5 : WtC) (x6 : BiasC) (i : S8x2048x2048.Idx) :
    val_main_v14 (F := Ideal) x0 x1 x3 x4 x5 x6 i = scores x0 x1 x3 x4 x5 x6 (i 0) (i 1) (i 2) := by
  rw [val_main_v14_apply, val_main_v13_apply, val_main_cst_apply, score_raw]
  simp only [Ideal.hostDivf_def, Ideal.ofBits_def]
  rw [div_scale]
  rfl

/-! ## The row maximum -/

/-- The shape fact under which a key-axis reduction is read coordinate by coordinate. -/
theorem reduces_keys : S8x2048x2048.Reduces [2] S8x2048 := by decide

/-- The reduce with a maximum body from -∞ along the key axis is the specification's fold over the key rows. -/
theorem rowMax_fold (x0 x1 : ActC) (x3 : WtC) (x4 : BiasC) (x5 : WtC) (x6 : BiasC) (j : S8x2048.Idx) :
    val_main_v15 (F := Ideal) x0 x1 x3 x4 x5 x6 j
      = rowMax (fun k => scores x0 x1 x3 x4 x5 x6 (j 0) (j 1) k) := by
  unfold val_main_v15
  rw [Host.reduce_eq_fold_single FloatOps.maximumf _ _ reducesTo_S8x2048x2048_S8x2048_d2 reduces_keys h_S_]
  have hf : (val_main_v14 (F := Ideal) x0 x1 x3 x4 x5 x6 ∘ reduces_keys.lift j)
      = fun k : Fin 2048 => scores x0 x1 x3 x4 x5 x6 (j 0) (j 1) k := funext fun k => by
    show val_main_v14 (F := Ideal) x0 x1 x3 x4 x5 x6 (reduces_keys.lift j k) = _
    rw [score_scaled]
    rfl
  rw [hf]
  rfl

/-- Joining the fold once more with its own initial value changes nothing: the fold lies above it. -/
theorem rowMax_joined (x0 x1 : ActC) (x3 : WtC) (x4 : BiasC) (x5 : WtC) (x6 : BiasC) (j : S8x2048.Idx) :
    val_main_v17 (F := Ideal) x0 x1 x3 x4 x5 x6 j
      = rowMax (fun k => scores x0 x1 x3 x4 x5 x6 (j 0) (j 1) k) := by
  rw [val_main_v17_apply, val_main_v16_apply, val_main_cst_1_apply, rowMax_fold]
  simp only [Ideal.maximumf_def, Ideal.ofBits_def]
  unfold rowMax
  exact max_eq_right ((Finset.le_fold_max _).2 (Or.inl le_rfl))

/-! ## The softmax weights and their sum -/

/-- The exponential of a score's distance below its row's maximum is the specification's unnormalised weight. -/
theorem weight_exp (x0 x1 : ActC) (x3 : WtC) (x4 : BiasC) (x5 : WtC) (x6 : BiasC) (i : S8x2048x2048.Idx) :
    val_main_v21 (F := Ideal) x0 x1 x3 x4 x5 x6 i
      = expw (fun k => scores x0 x1 x3 x4 x5 x6 (i 0) (i 1) k) (i 2) := by
  rw [val_main_v21_apply, val_main_v20_apply, val_main_v19_apply, val_main_v18_apply, rowMax_joined, score_scaled]
  simp only [Ideal.hostUnary_exp_def, Ideal.subf_def]
  rfl

/-- The reduce with an add body from 0 along the key axis is the specification's normaliser. -/
theorem weight_sum (x0 x1 : ActC) (x3 : WtC) (x4 : BiasC) (x5 : WtC) (x6 : BiasC) (j : S8x2048.Idx) :
    val_main_v22 (F := Ideal) x0 x1 x3 x4 x5 x6 j
      = rowSum (fun k => scores x0 x1 x3 x4 x5 x6 (j 0) (j 1) k) := by
  rw [val_main_v22_apply, val_main_cst_2_apply]
  simp only [Ideal.ofBits_def, Ideal.ofBits_zero_f32, zero_add]
  unfold rowSum
  refine Finset.sum_congr rfl fun k _ => ?_
  rw [weight_exp]
  rfl

/-- Each weight divided by its row's normaliser. -/
theorem weight_normalised (x0 x1 : ActC) (x3 : WtC) (x4 : BiasC) (x5 : WtC) (x6 : BiasC) (i : S8x2048x2048.Idx) :
    val_main_v25 (F := Ideal) x0 x1 x3 x4 x5 x6 i
      = Ideal.div (expw (fun k => scores x0 x1 x3 x4 x5 x6 (i 0) (i 1) k) (i 2))
          (rowSum (fun k => scores x0 x1 x3 x4 x5 x6 (i 0) (i 1) k)) := by
  rw [val_main_v25_apply, val_main_v24_apply, val_main_v23_apply, weight_sum, weight_exp]
  simp only [Ideal.hostDivf_def]
  rfl

/-! ## The result -/

/-- THE REFERENCE'S RESULT ARRAY is the specification's attention with every weight normalised before the weighted
    sum, over the scaled scores of the query and key projections and the value projection. -/
theorem ref_value (x0 x1 x2 : (⟨S8x2048x256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) :
    Cert.ReferenceIdeal.Read.val_main_v26 (F := Ideal) x0 x1 x2 x3 x4 x5 x6 x7 x8
      = fun i => Cert.CrossAttn.attendRef (fun k => Cert.CrossAttn.scores x0 x1 x3 x4 x5 x6 (i 0) (i 1) k)
          (fun k => Cert.CrossAttn.linear x2 x7 x8 (i 0) k (i 2)) := by
  funext i
  rw [val_main_v26_apply]
  unfold attendRef
  refine Finset.sum_congr rfl fun k _ => ?_
  rw [weight_normalised, linear_v]
  rfl

end Cert.CrossAttn.Ref

end
-- ==== Proof.CaseValue.lean ====
/-
  What one run of the kernel body leaves behind, as values of the blocks it was handed.

  The body has two cases. At the first query tile of a batch element it first projects that element's whole key and
  value blocks — a linear layer each — and stores the two projections into the two scratch buffers it keeps between
  grid points; at the other query tiles it stores nothing there and finds the scratch as the point before left it.
  In both cases it then computes the output tile from the query block, the query weights and bias, and the two
  scratch buffers as they stand after that.

  So with `proj` the projection payload and `attn` the output payload:
    first tile : K-scratch = proj (key block), V-scratch = proj (value block),
                 output = attn (query block) (those two projections)          — the loads read back what was just stored
    later tiles: scratch unchanged, output = attn (query block) (the scratch as found).
-/
import proofs.«147305_j49606872269322_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F] [Named F]

/-- The origin of a rank-2 block. -/
theorem hz2 : (![0, 0] : Fin 2 → Nat) = fun _ => 0 := funext fun a => by fin_cases a <;> rfl
/-- The origin of a rank-3 block. -/
theorem hz3 : (![0, 0, 0] : Fin 3 → Nat) = fun _ => 0 := funext fun a => by fin_cases a <;> rfl

variable (c : Dev nD) (i : grid0.Coords)
  (arg2 : Memref sig .tc .vmem S1x512x256 .f32) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S256x256 .bf16) (harg5 : arg5.IsWhole)
  (arg6 : Memref sig .tc .vmem S1x256 .f32) (harg6 : arg6.IsWhole)
  (arg7 : Memref sig .tc .vmem S256x256 .bf16) (harg7 : arg7.IsWhole)
  (arg8 : Memref sig .tc .vmem S1x256 .f32) (harg8 : arg8.IsWhole)
  (arg9 : Memref sig .tc .vmem S256x256 .bf16) (harg9 : arg9.IsWhole)
  (arg10 : Memref sig .tc .vmem S1x256 .f32) (harg10 : arg10.IsWhole)
  (arg11 : Memref sig .tc .vmem S1x512x256 .f32) (harg11 : arg11.IsWhole)
  (arg12 : Memref sig .tc .vmem S2048x256 .bf16) (harg12 : arg12.IsWhole)
  (arg13 : Memref sig .tc .vmem S2048x256 .bf16) (harg13 : arg13.IsWhole)
  (x0 : Vec F S1x512x256 .f32) (x1 : Vec F S1x2048x256 .f32) (x2 : Vec F S1x2048x256 .f32)
  (x3 : Vec F S256x256 .bf16) (x4 : Vec F S1x256 .f32) (x5 : Vec F S256x256 .bf16) (x6 : Vec F S1x256 .f32)
  (x7 : Vec F S256x256 .bf16) (x8 : Vec F S1x256 .f32)

/-- First tile of a batch element: the key scratch ends holding the projection of the key block. -/
theorem scratchK_first (hc0 : cond0_0 i) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg3.read_unread, harg7.read_unread, harg8.read_unread,
    View.ld_unit_zero (S := S1x2048x256) hz3, View.ld_unit_zero (S := S256x256) hz2, View.ld_unit_zero (S := S1x256) hz2]

/-- First tile of a batch element: the value scratch ends holding the projection of the value block. -/
theorem scratchV_first (hc0 : cond0_0 i) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg4.read_unread, harg9.read_unread, harg10.read_unread,
    View.ld_unit_zero (S := S1x2048x256) hz3, View.ld_unit_zero (S := S256x256) hz2, View.ld_unit_zero (S := S1x256) hz2]

/-- First tile: the output tile is the attention payload over the two projections just stored — each scratch load
    reads back the one whole-buffer store before it. -/
theorem out_first (hc0 : cond0_0 i) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x0 x3 x4 (k0_pay1 x1 x5 x6) (k0_pay2 x2 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3]
  simp only [View.readCov_unit_zero (S := S2048x256) _ hz2, View.readAt_eq_ld, harg2.read_unread, harg3.read_unread,
    harg4.read_unread, harg5.read_unread, harg6.read_unread, harg7.read_unread, harg8.read_unread, harg9.read_unread,
    harg10.read_unread, View.ld_unit_zero (S := S1x512x256) hz3, View.ld_unit_zero (S := S1x2048x256) hz3,
    View.ld_unit_zero (S := S256x256) hz2, View.ld_unit_zero (S := S1x256) hz2]

/-- Later tiles: the output tile is the attention payload over the scratch as the point before left it. -/
theorem out_later (hc0 : ¬cond0_0 i) (xs0 xs1 : Vec F S2048x256 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay3 x0 x3 x4 xs0 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  sl_unfold_words
  rw [View.canon_unit_zero hz3]
  simp only [View.readAt_eq_ld, harg2.read_unread, harg5.read_unread, harg6.read_unread, harg12.read_unread, harg13.read_unread,
    View.ld_unit_zero (S := S1x512x256) hz3, View.ld_unit_zero (S := S256x256) hz2, View.ld_unit_zero (S := S1x256) hz2, View.ld_unit_zero (S := S2048x256) hz2]

end Cert.KernelIdeal.Cases

end
-- ==== Proof.Reads.lean ====
/-
  Reading the body's non-pointwise operations at an index, on the extended reals.

  Two layout facts about a COLUMN: a vector cast to a one-column matrix, and a one-column matrix broadcast along
  its rows. And the four matrix products of the body, each into a zero accumulator, each as the plain sum over its
  one contracted axis: three of them rows-against-columns (x · W), one rows-against-rows (q · kᵀ: both operands
  contract their feature axis, so no transpose is ever formed).
-/
import proofs.«147305_j49606872269322_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reads

open Idealize.ShloMosaic Idealize.ShloMosaic.ValueIdx Cert.KernelIdeal Cert.KernelIdeal.Facts₀

variable {α : Type}

/-- An `[a]` vector cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmul_project_seq_lhs (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem matmul_project_seq_rhs (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The projection of a whole key or value block: row `r` of the block against column `c` of the (already transposed) weights. -/
theorem matmul_project_seq {φ₁ φ₂ : FTy} (l : FVec Ideal S2048x256 φ₁) (w : FVec Ideal S256x256 φ₂) (r : Fin 2048) (c : Fin 256) :
    matmul dot_S2048x256_S256x256_S2048x256_1_0_0_1_n_n none l w (constant S2048x256 .f32 0x00000000#32) (ix2 r c)
      = ∑ d : Fin 256, l (ix2 r d) * w (ix2 d c) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun d _ => ?_
  have hk := ValueIdx.contrEquiv1_symm_val dot_S2048x256_S256x256_S2048x256_1_0_0_1_n_n 256 rfl rfl d
  have el : dot_S2048x256_S256x256_S2048x256_1_0_0_1_n_n.lhsIdx (ix2 r c) ((ValueIdx.contrEquiv1 dot_S2048x256_S256x256_S2048x256_1_0_0_1_n_n 256 rfl rfl).symm d) = ix2 r d := funext fun a => Fin.ext (by
    match a with
    | ⟨0, _⟩ => exact matmul_project_seq_lhs _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 r c) ((ValueIdx.contrEquiv1 dot_S2048x256_S256x256_S2048x256_1_0_0_1_n_n 256 rfl rfl).symm d) = ix2 d c := funext fun a => Fin.ext (by
    match a with
    | ⟨0, _⟩ => exact (dot_S2048x256_S256x256_S2048x256_1_0_0_1_n_n.rhsIdx_val_of_single rfl _ _).trans hk
    | ⟨1, _⟩ => exact matmul_project_seq_rhs _ _)
  rw [el, er]

theorem matmul_project_tile_lhs (j : S512x256.Idx) (q : dot_S512x256_S256x256_S512x256_1_0_0_1_n_n.contr.Idx) :
    (dot_S512x256_S256x256_S512x256_1_0_0_1_n_n.lhsIdx j q 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem matmul_project_tile_rhs (j : S512x256.Idx) (q : dot_S512x256_S256x256_S512x256_1_0_0_1_n_n.contr.Idx) :
    (dot_S512x256_S256x256_S512x256_1_0_0_1_n_n.rhsIdx j q 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- The projection of a query tile: the same contraction over a tile of 512 rows. -/
theorem matmul_project_tile {φ₁ φ₂ : FTy} (l : FVec Ideal S512x256 φ₁) (w : FVec Ideal S256x256 φ₂) (r : Fin 512) (c : Fin 256) :
    matmul dot_S512x256_S256x256_S512x256_1_0_0_1_n_n none l w (constant S512x256 .f32 0x00000000#32) (ix2 r c)
      = ∑ d : Fin 256, l (ix2 r d) * w (ix2 d c) := by
  simp only [matmul]
  rw [Ideal.matmul_constant_zero_apply, ← Equiv.sum_comp (ValueIdx.contrEquiv1 dot_S512x256_S256x256_S512x256_1_0_0_1_n_n 256 rfl rfl).symm]
  refine Finset.sum_congr rfl fun d _ => ?_
  have hk := ValueIdx.contrEquiv1_symm_val dot_S512x256_S256x256_S512x256_1_0_0_1_n_n 256 rfl rfl d
  have el : dot_S512x256_S256x256_S512x256_1_0_0_1_n_n.lhsIdx (ix2 r c) ((ValueIdx.contrEquiv1 dot_S512x256_S256x256_S512x256_1_0_0_1_n_n 256 rfl rfl).symm d) = ix2 r d := funext fun a => Fin.ext (by
    match a with
    | ⟨0, _⟩ => exact matmul_project_tile_lhs _ _
    | ⟨1, _⟩ => exact (dot_S512x256_S256x256_S512x256_1_0_0_1_n_n.lhsIdx_val_of_single rfl _ _).trans hk)
  have er : dot_S512x256_S256x256_S512x256_1_0_0_1_n_n.rhsIdx (ix2 r c) ((ValueIdx.contrEquiv1 dot_S512x256_S256x256_S512x256_1_0_0_1_n_n 256 rfl rfl).symm d) = ix2 d c := funext fun a => Fin.ext (by
    match a with
    | ⟨0, _⟩ => exact (dot_S512x256_S256x256_S512x256_1_0_0_1_n_n.rhsIdx_val_of_single rfl _ _).trans hk
    | ⟨1, _⟩ => exact matmul_project_tile_rhs _ _)
  rw [el, er]

theorem matmul_scores_lhs (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem matmul_scores_rhs (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
/-- The raw scores: query row `r` against KEY ROW `c`, both contracting their feature axis. -/
theorem matmul_scores {φ₁ φ₂ : FTy} (l : FVec Ideal S512x256 φ₁) (w : FVec Ideal S2048x256 φ₂) (r : Fin 512) (c : Fin 2048) :
    matmul dot_S512x256_S2048x256_S512x2048_1_1_0_0_n_n none l w (constant S512x2048 .f32 0x00000000#32) (ix2 r c)
      = ∑ d : Fin 256, l (ix2 r d) * w (ix2 c d) := by
  simp only [matmul]
  rw [Ideal.matmul_constant_zero_apply, ← Equiv.sum_comp (ValueIdx.contrEquiv1 dot_S512x256_S2048x256_S512x2048_1_1_0_0_n_n 256 rfl rfl).symm]
  refine Finset.sum_congr rfl fun d _ => ?_
  have hk := ValueIdx.contrEquiv1_symm_val dot_S512x256_S2048x256_S512x2048_1_1_0_0_n_n 256 rfl rfl d
  have el : dot_S512x256_S2048x256_S512x2048_1_1_0_0_n_n.lhsIdx (ix2 r c) ((ValueIdx.contrEquiv1 dot_S512x256_S2048x256_S512x2048_1_1_0_0_n_n 256 rfl rfl).symm d) = ix2 r d := funext fun a => Fin.ext (by
    match a with
    | ⟨0, _⟩ => exact matmul_scores_lhs _ _
    | ⟨1, _⟩ => exact (dot_S512x256_S2048x256_S512x2048_1_1_0_0_n_n.lhsIdx_val_of_single rfl _ _).trans hk)
  have er : dot_S512x256_S2048x256_S512x2048_1_1_0_0_n_n.rhsIdx (ix2 r c) ((ValueIdx.contrEquiv1 dot_S512x256_S2048x256_S512x2048_1_1_0_0_n_n 256 rfl rfl).symm d) = ix2 c d := funext fun a => Fin.ext (by
    match a with
    | ⟨0, _⟩ => exact matmul_scores_rhs _ _
    | ⟨1, _⟩ => exact (dot_S512x256_S2048x256_S512x2048_1_1_0_0_n_n.rhsIdx_val_of_single rfl _ _).trans hk)
  rw [el, er]

theorem matmul_weighted_lhs (j : S512x256.Idx) (q : dot_S512x2048_S2048x256_S512x256_1_0_0_1_n_n.contr.Idx) :
    (dot_S512x2048_S2048x256_S512x256_1_0_0_1_n_n.lhsIdx j q 0).val = (j 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem matmul_weighted_rhs (j : S512x256.Idx) (q : dot_S512x2048_S2048x256_S512x256_1_0_0_1_n_n.contr.Idx) :
    (dot_S512x2048_S2048x256_S512x256_1_0_0_1_n_n.rhsIdx j q 1).val = (j 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl
/-- The weighted sum of value rows: weight row `r` against column `c` of the projected values, over the 2048 keys. -/
theorem matmul_weighted {φ₁ φ₂ : FTy} (l : FVec Ideal S512x2048 φ₁) (w : FVec Ideal S2048x256 φ₂) (r : Fin 512) (c : Fin 256) :
    matmul dot_S512x2048_S2048x256_S512x256_1_0_0_1_n_n none l w (constant S512x256 .f32 0x00000000#32) (ix2 r c)
      = ∑ d : Fin 2048, l (ix2 r d) * w (ix2 d c) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun d _ => ?_
  have hk := ValueIdx.contrEquiv1_symm_val dot_S512x2048_S2048x256_S512x256_1_0_0_1_n_n 2048 rfl rfl d
  have el : dot_S512x2048_S2048x256_S512x256_1_0_0_1_n_n.lhsIdx (ix2 r c) ((ValueIdx.contrEquiv1 dot_S512x2048_S2048x256_S512x256_1_0_0_1_n_n 2048 rfl rfl).symm d) = ix2 r d := funext fun a => Fin.ext (by
    match a with
    | ⟨0, _⟩ => exact matmul_weighted_lhs _ _
    | ⟨1, _⟩ => exact (dot_S512x2048_S2048x256_S512x256_1_0_0_1_n_n.lhsIdx_val_of_single rfl _ _).trans hk)
  have er : dot_S512x2048_S2048x256_S512x256_1_0_0_1_n_n.rhsIdx (ix2 r c) ((ValueIdx.contrEquiv1 dot_S512x2048_S2048x256_S512x256_1_0_0_1_n_n 2048 rfl rfl).symm d) = ix2 d c := funext fun a => Fin.ext (by
    match a with
    | ⟨0, _⟩ => exact (dot_S512x2048_S2048x256_S512x256_1_0_0_1_n_n.rhsIdx_val_of_single rfl _ _).trans hk
    | ⟨1, _⟩ => exact matmul_weighted_rhs _ _)
  rw [el, er]

end Cert.KernelIdeal.Reads

end
-- ==== Proof.Payload.lean ====
/-
  The body's two payloads read at an index, on the extended reals.

  A projection payload (the key block's and the value block's are one and the same term): entry (k, e) is the block's
  row k against column e of the transposed weights, plus the bias — the format changes to bf16 and back are the
  identity on extended reals, and the product into a zero accumulator is the plain sum.

  The attention payload at (q, e): with x the projected query tile (the same linear layer over the tile's rows),
    s k = (∑ e', x q e' · Kc k e') · r       r the named reciprocal scale, Kc the key scratch
    m   = the fold of max over the s k from -∞
    p k = exp (s k - m)
    out = (∑ k, p k · Vc k e) / ∑ k, p k      Vc the value scratch
  which is the specification's `attend` of that row of scores over that column of values.
-/
import proofs.«147305_j49606872269322_2_alg».proof.Proof.Gen.KernelIdeal.Skeleton
import proofs.«147305_j49606872269322_2_alg».proof.Proof.Reads
import proofs.«147305_j49606872269322_2_alg».proof.Proof.Spec
import Idealize.ShloMosaic.PureOps.IdealRules

set_option maxRecDepth 16384

noncomputable section

namespace Cert.KernelIdeal.Payload

open Idealize.ShloMosaic Idealize.ShloMosaic.ValueIdx Cert.KernelIdeal Cert.KernelIdeal.Gen Cert.KernelIdeal.Reads

/-- The elementwise exponential at an index. -/
theorem exp_apply {s : Shape} {φ : FTy} (a : FVec Ideal s φ) (i : s.Idx) : exp a i = Ideal.exp (a i) := rfl

/-- The kernel's named scale constant denotes, on the extended reals, the exact reciprocal of the reference's divisor. -/
theorem named_scale : Named.named (F := Ideal) Cert.KernelIdeal.κ "inv_scale" (φ := .f32) 0x3DB504F3#32 = Cert.CrossAttn.invScale :=
  IdealRules.named_const.ideal_named_scalar _ _ _ _ rfl

/-- A row's maximum over the 2048 keys: the fold of `max` from the float -∞ (whatever proofs of the side facts the
    term carries). -/
theorem rowMax_apply (v : FVec Ideal S512x2048 .f32) (h : S512x2048.Reduces [1] S512) (hφ : FKind.Formats .f32)
    (hacc : (0xFF800000#32 : BitVec 32) = FKind.maximumf.neutral .f32 hφ) (q : Fin 512) :
    multiReduction .maximumf [1] S512 v 0xFF800000#32 h hφ hacc (ix1 q)
      = (Finset.univ : Finset (Fin 2048)).fold max (Ideal.ofBits .f32 0xFF800000#32) (fun k => v (ix2 q k)) := by
  refine (Ideal.multiReduction_maximumf_single v 0xFF800000#32 h hφ hacc (ix1 q)).trans ?_
  refine congrArg (Finset.fold max (Ideal.ofBits .f32 0xFF800000#32) · Finset.univ) (funext fun k => congrArg v (funext fun a => Fin.ext ?_))
  match a with
  | ⟨0, _⟩ => rfl
  | ⟨1, _⟩ => rfl

/-- A row's sum over the 2048 keys. -/
theorem rowSum_apply (v : FVec Ideal S512x2048 .f32) (h : S512x2048.Reduces [1] S512) (hφ : FKind.Formats .f32)
    (hacc : (0x00000000#32 : BitVec 32) = FKind.add.neutral .f32 hφ) (q : Fin 512) :
    multiReduction .add [1] S512 v 0x00000000#32 h hφ hacc (ix1 q)
      = ∑ k : Fin 2048, v (ix2 q k) := by
  refine (Ideal.multiReduction_add_single v 0x00000000#32 h hφ hacc (ix1 q)).trans ?_
  refine Finset.sum_congr rfl fun k _ => congrArg v (funext fun a => Fin.ext ?_)
  match a with
  | ⟨0, _⟩ => rfl
  | ⟨1, _⟩ => rfl

/-- The projection payload at (k, e): the block's row k against column e of the transposed weights, plus the bias. -/
theorem proj_apply (blk : FVec Ideal S1x2048x256 .f32) (wT : FVec Ideal S256x256 .bf16) (β : FVec Ideal S1x256 .f32) (k : Fin 2048) (e : Fin 256) :
    k0_pay1 (F := Ideal) blk wT β (ix2 k e) = (∑ d : Fin 256, blk (ix3 (0 : Fin 1) k d) * wT (ix2 d e)) + β (ix2 (0 : Fin 1) e) := by
  unfold k0_pay1
  simp only [shapeCast_self, truncf_apply, addf_apply, matmul_project_seq, broadcastTo_1b_ab_apply, shapeCast_1ab_ab_apply]

/-- The value block's projection payload is the key block's, term for term. -/
theorem proj_value_eq (blk : FVec Ideal S1x2048x256 .f32) (wT : FVec Ideal S256x256 .bf16) (β : FVec Ideal S1x256 .f32) :
    k0_pay2 (F := Ideal) blk wT β = k0_pay1 (F := Ideal) blk wT β := rfl

/-- The tail of the attention payload over an ARBITRARY matrix of scaled scores `sv` (512 query rows by 2048 keys):
    row maximum, exponentials of the distances below it, their row sum, the weighted sum of the value scratch's
    rows, and one division — at (q, e) it is `attend` of row q of the scores over column e of the values. -/
theorem softmax_tail (sv : FVec Ideal S512x2048 .f32) (vc : FVec Ideal S2048x256 .bf16)
    (h : S512x2048.Reduces [1] S512) (hφ : FKind.Formats .f32)
    (hmax : (0xFF800000#32 : BitVec 32) = FKind.maximumf.neutral .f32 hφ) (hadd : (0x00000000#32 : BitVec 32) = FKind.add.neutral .f32 hφ)
    (hc1 : S512.ShapeCasts S512x1) (hb1 : S512x1.Broadcasts S512x2048) (hb2 : S512x1.Broadcasts S512x256)
    (hc2 : S512x256.ShapeCasts S1x512x256) (hbits : FTy.bits .bf16 < FTy.bits .f32) (q : Fin 512) (e : Fin 256) :
    shapeCast S1x512x256
        (divf
          (matmul dot_S512x2048_S2048x256_S512x256_1_0_0_1_n_n none
            (truncf .bf16 (exp (subf sv (broadcastTo S512x2048 (shapeCast S512x1 (multiReduction .maximumf [1] S512 sv 0xFF800000#32 h hφ hmax) hc1) hb1))) hbits)
            vc (constant S512x256 .f32 0x00000000#32))
          (broadcastTo S512x256
            (shapeCast S512x1
              (multiReduction .add [1] S512
                (exp (subf sv (broadcastTo S512x2048 (shapeCast S512x1 (multiReduction .maximumf [1] S512 sv 0xFF800000#32 h hφ hmax) hc1) hb1)))
                0x00000000#32 h hφ hadd) hc1) hb2))
        hc2 (ix3 (0 : Fin 1) q e)
      = Cert.CrossAttn.attend (fun k => sv (ix2 q k)) (fun k => vc (ix2 k e)) := by
  have hM := rowMax_apply sv h hφ hmax q
  have hR := rowSum_apply (exp (subf sv (broadcastTo S512x2048 (shapeCast S512x1 (multiReduction .maximumf [1] S512 sv 0xFF800000#32 h hφ hmax) hc1) hb1))) h hφ hadd q
  simp only [exp_apply, subf_apply, broadcastTo_a1_ab_apply, shapeCast_a_a1_apply] at hR
  simp only [shapeCast_ab_1ab_apply, divf_apply, matmul_weighted, truncf_apply, exp_apply, subf_apply,
    broadcastTo_a1_ab_apply, shapeCast_a_a1_apply,
    Cert.CrossAttn.attend, Cert.CrossAttn.expw, Cert.CrossAttn.rowSum, Cert.CrossAttn.rowMax]
  rw [hR, hM]

/-- The attention payload at (q, e): the specification's `attend` of the tile's row of scaled scores — the projected
    query row against every row of the key scratch — over column e of the value scratch. -/
theorem attn_apply (qblk : FVec Ideal S1x512x256 .f32) (wT : FVec Ideal S256x256 .bf16) (β : FVec Ideal S1x256 .f32)
    (kc vc : FVec Ideal S2048x256 .bf16) (q : Fin 512) (e : Fin 256) :
    k0_pay3 (F := Ideal) qblk wT β kc vc (ix3 (0 : Fin 1) q e)
      = Cert.CrossAttn.attend
          (fun k => (∑ e' : Fin 256, ((∑ d : Fin 256, qblk (ix3 (0 : Fin 1) q d) * wT (ix2 d e')) + β (ix2 (0 : Fin 1) e')) * kc (ix2 k e'))
            * Cert.CrossAttn.invScale)
          (fun k => vc (ix2 k e)) := by
  unfold k0_pay3
  refine (softmax_tail _ vc _ _ _ _ _ _ _ _ _ q e).trans ?_
  refine congrArg (Cert.CrossAttn.attend · (fun k => vc (ix2 k e))) (funext fun k => ?_)
  simp only [mulf_apply, broadcast_apply, named_scale, matmul_scores, truncf_apply, addf_apply, matmul_project_tile,
    shapeCast_1ab_ab_apply, shapeCast_self, broadcastTo_1b_ab_apply]

end Cert.KernelIdeal.Payload

end
-- ==== Proof.Blocks.lean ====
/-
  What each input block of a grid point holds, entry by entry, in terms of the nine argument arrays.

  The grid is 8 batch elements by 4 query tiles; point t is batch element t / 4, tile t % 4. The query block of
  point t is rows 512·(t % 4) … of that batch element; the key and value blocks are the batch element's whole
  2048 rows, the same block at all four tiles; the six small operands are whole arrays, the same at every point.
  The weight operands reach the region already transposed by the host (entry (d, e) of the operand is entry (e, d)
  of the argument), the biases reshaped to one row.
-/
import proofs.«147305_j49606872269322_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The batch element a grid point works on. -/
def batchOf (t : Fin cfg0.N) : Fin 8 :=
  ⟨t.val / 4, by have := lt_of_lt_of_eq t.isLt (show cfg0.N = 32 from N_0); omega⟩

/-- The array row that row q of a grid point's query tile is. -/
def rowOf (t : Fin cfg0.N) (q : Fin 512) : Fin 2048 :=
  ⟨512 * (t.val % 4) + q.val, by have := q.isLt; omega⟩

/-- The printed index maps, decided over the 32 grid points. -/
theorem idx_facts : ∀ t : Fin cfg0.N,
    win0_0.index t (0 : Fin 3) = t.val / 4
    ∧ win0_0.index t (1 : Fin 3) = t.val % 4
    ∧ win0_0.index t (2 : Fin 3) = 0
    ∧ win0_1.index t (0 : Fin 3) = t.val / 4
    ∧ win0_1.index t (1 : Fin 3) = 0
    ∧ win0_1.index t (2 : Fin 3) = 0
    ∧ win0_2.index t (0 : Fin 3) = t.val / 4
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 3) = t.val / 4
    ∧ win0_9.index t (1 : Fin 3) = t.val % 4
    ∧ win0_9.index t (2 : Fin 3) = 0 :=
  (by decide +kernel : ∀ t : Fin grid0.N, _)

/-- The query block of point t: rows 512·(t % 4) + q of batch element t / 4. -/
theorem query_block (c : Dev nD) (t : Fin cfg0.N) (q : Fin 512) (d : Fin 256) :
    iblk m c 0 t (ix3 (0 : Fin 1) q d) = m ((c : Thread nD τ).loc main_arg0) (ix3 (batchOf t) (rowOf t q) d) := by
  rw [← V_main_arg0 m c]
  show V m c main_arg0 (((cfg0.win 0).blk t).view.emb (ix3 (0 : Fin 1) q d)) = V m c main_arg0 _
  refine congrArg (V m c main_arg0) (funext fun a => Fin.ext ?_)
  have hN : t.val < 32 := lt_of_lt_of_eq t.isLt (show cfg0.N = 32 from N_0)
  obtain ⟨f0, f1, f2, f3, f4, f5, f6, f7, f8, f9, f10, f11, f12, f13, f14, f15, f16, f17, f18, f19, f20, f21, f22, f23⟩ := idx_facts t
  match a with
  | ⟨0, _⟩ => show win0_0.index t (0 : Fin 3) * 1 + 1 * 0 = t.val / 4; omega
  | ⟨1, _⟩ => show win0_0.index t (1 : Fin 3) * 512 + 1 * q.val = 512 * (t.val % 4) + q.val; omega
  | ⟨2, _⟩ => show win0_0.index t (2 : Fin 3) * 256 + 1 * d.val = d.val; omega

/-- The key block of point t: the whole batch element t / 4. -/
theorem key_block (c : Dev nD) (t : Fin cfg0.N) (k : Fin 2048) (d : Fin 256) :
    iblk m c 1 t (ix3 (0 : Fin 1) k d) = m ((c : Thread nD τ).loc main_arg1) (ix3 (batchOf t) k d) := by
  rw [← V_main_arg1 m c]
  show V m c main_arg1 (((cfg0.win 1).blk t).view.emb (ix3 (0 : Fin 1) k d)) = V m c main_arg1 _
  refine congrArg (V m c main_arg1) (funext fun a => Fin.ext ?_)
  have hN : t.val < 32 := lt_of_lt_of_eq t.isLt (show cfg0.N = 32 from N_0)
  obtain ⟨f0, f1, f2, f3, f4, f5, f6, f7, f8, f9, f10, f11, f12, f13, f14, f15, f16, f17, f18, f19, f20, f21, f22, f23⟩ := idx_facts t
  match a with
  | ⟨0, _⟩ => show win0_1.index t (0 : Fin 3) * 1 + 1 * 0 = t.val / 4; omega
  | ⟨1, _⟩ => show win0_1.index t (1 : Fin 3) * 2048 + 1 * k.val = k.val; omega
  | ⟨2, _⟩ => show win0_1.index t (2 : Fin 3) * 256 + 1 * d.val = d.val; omega

/-- The value block of point t: the whole batch element t / 4. -/
theorem value_block (c : Dev nD) (t : Fin cfg0.N) (k : Fin 2048) (d : Fin 256) :
    iblk m c 2 t (ix3 (0 : Fin 1) k d) = m ((c : Thread nD τ).loc main_arg2) (ix3 (batchOf t) k d) := by
  rw [← V_main_arg2 m c]
  show V m c main_arg2 (((cfg0.win 2).blk t).view.emb (ix3 (0 : Fin 1) k d)) = V m c main_arg2 _
  refine congrArg (V m c main_arg2) (funext fun a => Fin.ext ?_)
  have hN : t.val < 32 := lt_of_lt_of_eq t.isLt (show cfg0.N = 32 from N_0)
  obtain ⟨f0, f1, f2, f3, f4, f5, f6, f7, f8, f9, f10, f11, f12, f13, f14, f15, f16, f17, f18, f19, f20, f21, f22, f23⟩ := idx_facts t
  match a with
  | ⟨0, _⟩ => show win0_2.index t (0 : Fin 3) * 1 + 1 * 0 = t.val / 4; omega
  | ⟨1, _⟩ => show win0_2.index t (1 : Fin 3) * 2048 + 1 * k.val = k.val; omega
  | ⟨2, _⟩ => show win0_2.index t (2 : Fin 3) * 256 + 1 * d.val = d.val; omega

/-- The host writes main_v1 as the transpose of main_arg3, its format changed (the identity on extended reals). -/
theorem V_main_v1 (c : Dev nD) : @Eq (S256x256.Idx → EReal) (V m c main_v1)
    (truncf (F := Ideal) .bf16 (transpose S256x256 [1, 0] (m ((c : Thread nD τ).loc main_arg3) : FVec Ideal S256x256 .f32) transposes_S256x256_S256x256_1_0) bitsLt_bf16_f32) := by
  dsimp only [Gen.V, Gen.hostOps0]; after_results

/-- The query weights as the body finds them: transposed. -/
theorem wq_block (c : Dev nD) (t : Fin cfg0.N) (d e : Fin 256) :
    iblk m c 3 t (ix2 d e) = m ((c : Thread nD τ).loc main_arg3) (ix2 e d) := by
  show V m c main_v1 (((cfg0.win 3).blk t).view.emb (ix2 d e)) = _
  have he : ((cfg0.win 3).blk t).view.emb (ix2 d e) = ix2 d e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_3.index t (0 : Fin 2) * 256 + 1 * d.val = d.val; omega
    | ⟨1, _⟩ => show win0_3.index t (1 : Fin 2) * 256 + 1 * e.val = e.val; omega)
  rw [he]
  exact (congrFun (V_main_v1 m c) (ix2 d e)).trans
    (transpose_ix2_apply (m ((c : Thread nD τ).loc main_arg3) : FVec Ideal S256x256 .f32) transposes_S256x256_S256x256_1_0 d e)

/-- The host writes main_v6 as main_arg4 reshaped to one row. -/
theorem V_main_v6 (c : Dev nD) : @Eq (S1x256.Idx → EReal) (V m c main_v6)
    (shapeCast S1x256 (m ((c : Thread nD τ).loc main_arg4) : FVec Ideal S256 .f32) shapeCasts_S256_S1x256) := by
  dsimp only [Gen.V, Gen.hostOps0]; after_results; rfl

/-- The query bias as the body finds it: one row. -/
theorem bq_block (c : Dev nD) (t : Fin cfg0.N) (e : Fin 256) :
    iblk m c 4 t (ix2 (0 : Fin 1) e) = m ((c : Thread nD τ).loc main_arg4) (ix1 e) := by
  show V m c main_v6 (((cfg0.win 4).blk t).view.emb (ix2 (0 : Fin 1) e)) = _
  have he : ((cfg0.win 4).blk t).view.emb (ix2 (0 : Fin 1) e) = ix2 (0 : Fin 1) e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_4.index t (0 : Fin 2) * 1 + 1 * 0 = 0; omega
    | ⟨1, _⟩ => show win0_4.index t (1 : Fin 2) * 256 + 1 * e.val = e.val; omega)
  rw [he]
  exact (congrFun (V_main_v6 m c) (ix2 (0 : Fin 1) e)).trans (shapeCast_a_1a_apply _ _ (0 : Fin 1) e)

/-- The host writes main_v3 as the transpose of main_arg5, its format changed (the identity on extended reals). -/
theorem V_main_v3 (c : Dev nD) : @Eq (S256x256.Idx → EReal) (V m c main_v3)
    (truncf (F := Ideal) .bf16 (transpose S256x256 [1, 0] (m ((c : Thread nD τ).loc main_arg5) : FVec Ideal S256x256 .f32) transposes_S256x256_S256x256_1_0) bitsLt_bf16_f32) := by
  dsimp only [Gen.V, Gen.hostOps0]; after_results

/-- The key weights as the body finds them: transposed. -/
theorem wk_block (c : Dev nD) (t : Fin cfg0.N) (d e : Fin 256) :
    iblk m c 5 t (ix2 d e) = m ((c : Thread nD τ).loc main_arg5) (ix2 e d) := by
  show V m c main_v3 (((cfg0.win 5).blk t).view.emb (ix2 d e)) = _
  have he : ((cfg0.win 5).blk t).view.emb (ix2 d e) = ix2 d e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_5.index t (0 : Fin 2) * 256 + 1 * d.val = d.val; omega
    | ⟨1, _⟩ => show win0_5.index t (1 : Fin 2) * 256 + 1 * e.val = e.val; omega)
  rw [he]
  exact (congrFun (V_main_v3 m c) (ix2 d e)).trans
    (transpose_ix2_apply (m ((c : Thread nD τ).loc main_arg5) : FVec Ideal S256x256 .f32) transposes_S256x256_S256x256_1_0 d e)

/-- The host writes main_v7 as main_arg6 reshaped to one row. -/
theorem V_main_v7 (c : Dev nD) : @Eq (S1x256.Idx → EReal) (V m c main_v7)
    (shapeCast S1x256 (m ((c : Thread nD τ).loc main_arg6) : FVec Ideal S256 .f32) shapeCasts_S256_S1x256) := by
  dsimp only [Gen.V, Gen.hostOps0]; after_results; rfl

/-- The key bias as the body finds it: one row. -/
theorem bk_block (c : Dev nD) (t : Fin cfg0.N) (e : Fin 256) :
    iblk m c 6 t (ix2 (0 : Fin 1) e) = m ((c : Thread nD τ).loc main_arg6) (ix1 e) := by
  show V m c main_v7 (((cfg0.win 6).blk t).view.emb (ix2 (0 : Fin 1) e)) = _
  have he : ((cfg0.win 6).blk t).view.emb (ix2 (0 : Fin 1) e) = ix2 (0 : Fin 1) e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_6.index t (0 : Fin 2) * 1 + 1 * 0 = 0; omega
    | ⟨1, _⟩ => show win0_6.index t (1 : Fin 2) * 256 + 1 * e.val = e.val; omega)
  rw [he]
  exact (congrFun (V_main_v7 m c) (ix2 (0 : Fin 1) e)).trans (shapeCast_a_1a_apply _ _ (0 : Fin 1) e)

/-- The host writes main_v5 as the transpose of main_arg7, its format changed (the identity on extended reals). -/
theorem V_main_v5 (c : Dev nD) : @Eq (S256x256.Idx → EReal) (V m c main_v5)
    (truncf (F := Ideal) .bf16 (transpose S256x256 [1, 0] (m ((c : Thread nD τ).loc main_arg7) : FVec Ideal S256x256 .f32) transposes_S256x256_S256x256_1_0) bitsLt_bf16_f32) := by
  dsimp only [Gen.V, Gen.hostOps0]; after_results

/-- The value weights as the body finds them: transposed. -/
theorem wv_block (c : Dev nD) (t : Fin cfg0.N) (d e : Fin 256) :
    iblk m c 7 t (ix2 d e) = m ((c : Thread nD τ).loc main_arg7) (ix2 e d) := by
  show V m c main_v5 (((cfg0.win 7).blk t).view.emb (ix2 d e)) = _
  have he : ((cfg0.win 7).blk t).view.emb (ix2 d e) = ix2 d e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_7.index t (0 : Fin 2) * 256 + 1 * d.val = d.val; omega
    | ⟨1, _⟩ => show win0_7.index t (1 : Fin 2) * 256 + 1 * e.val = e.val; omega)
  rw [he]
  exact (congrFun (V_main_v5 m c) (ix2 d e)).trans
    (transpose_ix2_apply (m ((c : Thread nD τ).loc main_arg7) : FVec Ideal S256x256 .f32) transposes_S256x256_S256x256_1_0 d e)

/-- The host writes main_v8 as main_arg8 reshaped to one row. -/
theorem V_main_v8 (c : Dev nD) : @Eq (S1x256.Idx → EReal) (V m c main_v8)
    (shapeCast S1x256 (m ((c : Thread nD τ).loc main_arg8) : FVec Ideal S256 .f32) shapeCasts_S256_S1x256) := by
  dsimp only [Gen.V, Gen.hostOps0]; after_results; rfl

/-- The value bias as the body finds it: one row. -/
theorem bv_block (c : Dev nD) (t : Fin cfg0.N) (e : Fin 256) :
    iblk m c 8 t (ix2 (0 : Fin 1) e) = m ((c : Thread nD τ).loc main_arg8) (ix1 e) := by
  show V m c main_v8 (((cfg0.win 8).blk t).view.emb (ix2 (0 : Fin 1) e)) = _
  have he : ((cfg0.win 8).blk t).view.emb (ix2 (0 : Fin 1) e) = ix2 (0 : Fin 1) e := funext fun a => Fin.ext (by
    obtain ⟨f0, f1, f2, f3, f4, f5, f6, f7, f8, f9, f10, f11, f12, f13, f14, f15, f16, f17, f18, f19, f20, f21, f22, f23⟩ := idx_facts t
    match a with
    | ⟨0, _⟩ => show win0_8.index t (0 : Fin 2) * 1 + 1 * 0 = 0; omega
    | ⟨1, _⟩ => show win0_8.index t (1 : Fin 2) * 256 + 1 * e.val = e.val; omega)
  rw [he]
  exact (congrFun (V_main_v8 m c) (ix2 (0 : Fin 1) e)).trans (shapeCast_a_1a_apply _ _ (0 : Fin 1) e)

end Cert.KernelIdeal.Blocks

end
-- ==== Proof.KernelValue.lean ====
/-
  The kernel's result array is cross-attention of the nine arguments.

  Grid point t (batch element t / 4, query tile t % 4) leaves in its output tile the attention payload of its query
  block over the two scratch buffers as they stand after the point (`out_eq`, both cases of the body alike). By
  induction on the point the key scratch holds, after any point of batch element b, the projection of b's whole key
  block, and the value scratch the projection of b's value block: the first tile of b stores them, the other three
  leave them (`scratchK_eq`, `scratchV_eq`). So every point writes back its block of the one array `G` of the
  specification (`flushed_eq`), the 32 blocks tile the array (`cover`), and the array ends holding `G` (`final`).
-/
import proofs.«147305_j49606872269322_2_alg».proof.Proof.Gen.KernelIdeal.Value
import proofs.«147305_j49606872269322_2_alg».proof.Proof.CaseValue
import proofs.«147305_j49606872269322_2_alg».proof.Proof.Payload
import proofs.«147305_j49606872269322_2_alg».proof.Proof.Blocks
import proofs.«147305_j49606872269322_2_alg».proof.Proof.Spec

set_option maxRecDepth 16384

noncomputable section

namespace Cert.KernelIdeal.Attn

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.CrossAttn

variable (m : (ℓ : Loc nD τ sig) → Buf (Elt Ideal) ℓ) (ρ : Dev nD → PrngReg)

/-- The array the kernel should end with on core c: the specification's function of the nine arguments as launched. -/
def result (c : Dev nD) : S8x2048x256.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- After any point: the output tile is the attention payload of the point's query block, query weights and bias over
    the two scratch buffers as the point leaves them — at a first tile the projections it has just stored, at a later
    tile what the point before left, which it does not touch. -/
theorem out_eq (c : Dev nD) (t : Fin cfg0.N) :
    (outsAt0 m c t.val t.isLt).1
      = k0_pay3 (F := Ideal) (iblk m c 0 t) (iblk m c 3 t) (iblk m c 4 t) (outsAt0 m c t.val t.isLt).2.1 (outsAt0 m c t.val t.isLt).2.2 := by
  by_cases h0 : t.val % 4 = 0
  · rw [outsAt0_A m c t h0]
    dsimp only
    exact (Cases.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)).trans
      (congrArg₂ (k0_pay3 (F := Ideal) (iblk m c 0 t) (iblk m c 3 t) (iblk m c 4 t))
        (Cases.scratchK_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)).symm
        (Cases.scratchV_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)).symm)
  · rw [outsAt0_B m c t h0]
    dsimp only
    exact Cases.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) _ _

/-- The key scratch after point t holds the projected keys of t's batch element. -/
theorem scratchK_eq (c : Dev nD) : ∀ (n : ℕ) (t : Fin cfg0.N), t.val = n → ∀ (k : Fin 2048) (e : Fin 256),
    (outsAt0 m c t.val t.isLt).2.1 (ix2 k e) = linear (m ((c : Thread nD τ).loc main_arg1)) (m ((c : Thread nD τ).loc main_arg5)) (m ((c : Thread nD τ).loc main_arg6)) (batchOf t) k e := by
  intro n
  induction n with
  | zero =>
    intro t ht k e
    have h0 : t.val % 4 = 0 := by omega
    rw [outsAt0_A m c t h0]
    dsimp only
    refine (congrFun (Cases.scratchK_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)) (ix2 k e)).trans ?_
    refine (Payload.proj_apply (iblk m c 1 t) (iblk m c 5 t) (iblk m c 6 t) k e).trans ?_
    exact congrArg₂ (· + ·) (Finset.sum_congr rfl fun d _ => congrArg₂ (· * ·) (key_block m c t k d) (wk_block m c t d e)) (bk_block m c t e)
  | succ n ih =>
    intro t ht k e
    by_cases h0 : t.val % 4 = 0
    · rw [outsAt0_A m c t h0]
      dsimp only
      refine (congrFun (Cases.scratchK_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)) (ix2 k e)).trans ?_
      refine (Payload.proj_apply (iblk m c 1 t) (iblk m c 5 t) (iblk m c 6 t) k e).trans ?_
      exact congrArg₂ (· + ·) (Finset.sum_congr rfl fun d _ => congrArg₂ (· * ·) (key_block m c t k d) (wk_block m c t d e)) (bk_block m c t e)
    · rw [outsAt0_B m c t h0]
      dsimp only
      have hlt : t.val - 1 < cfg0.N := lt_of_le_of_lt (Nat.sub_le _ _) t.isLt
      have hb : batchOf (⟨t.val - 1, hlt⟩ : Fin cfg0.N) = batchOf t := Fin.ext (by show (t.val - 1) / 4 = t.val / 4; omega)
      exact (ih ⟨t.val - 1, hlt⟩ (by show t.val - 1 = n; omega) k e).trans (by rw [hb])

/-- The value scratch after point t holds the projected values of t's batch element. -/
theorem scratchV_eq (c : Dev nD) : ∀ (n : ℕ) (t : Fin cfg0.N), t.val = n → ∀ (k : Fin 2048) (e : Fin 256),
    (outsAt0 m c t.val t.isLt).2.2 (ix2 k e) = linear (m ((c : Thread nD τ).loc main_arg2)) (m ((c : Thread nD τ).loc main_arg7)) (m ((c : Thread nD τ).loc main_arg8)) (batchOf t) k e := by
  intro n
  induction n with
  | zero =>
    intro t ht k e
    have h0 : t.val % 4 = 0 := by omega
    rw [outsAt0_A m c t h0]
    dsimp only
    refine (congrFun (Cases.scratchV_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)) (ix2 k e)).trans ?_
    refine (Payload.proj_apply (iblk m c 2 t) (iblk m c 7 t) (iblk m c 8 t) k e).trans ?_
    exact congrArg₂ (· + ·) (Finset.sum_congr rfl fun d _ => congrArg₂ (· * ·) (value_block m c t k d) (wv_block m c t d e)) (bv_block m c t e)
  | succ n ih =>
    intro t ht k e
    by_cases h0 : t.val % 4 = 0
    · rw [outsAt0_A m c t h0]
      dsimp only
      refine (congrFun (Cases.scratchV_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0)) (ix2 k e)).trans ?_
      refine (Payload.proj_apply (iblk m c 2 t) (iblk m c 7 t) (iblk m c 8 t) k e).trans ?_
      exact congrArg₂ (· + ·) (Finset.sum_congr rfl fun d _ => congrArg₂ (· * ·) (value_block m c t k d) (wv_block m c t d e)) (bv_block m c t e)
    · rw [outsAt0_B m c t h0]
      dsimp only
      have hlt : t.val - 1 < cfg0.N := lt_of_le_of_lt (Nat.sub_le _ _) t.isLt
      have hb : batchOf (⟨t.val - 1, hlt⟩ : Fin cfg0.N) = batchOf t := Fin.ext (by show (t.val - 1) / 4 = t.val / 4; omega)
      exact (ih ⟨t.val - 1, hlt⟩ (by show t.val - 1 = n; omega) k e).trans (by rw [hb])

/-- WHAT POINT t WRITES BACK is block t of the result array: rows 512·(t % 4) … of batch element t / 4. -/
theorem flushed_eq (c : Dev nD) (t : Fin cfg0.N) :
    (dats m 0 c).flushed 9 t = ((cfg0.win 9).blk t).view.read (Elt Ideal) (result m c) := by
  rw [Value.flushed9]
  funext j
  obtain ⟨u, q, e, rfl⟩ : ∃ (u : Fin 1) (q : Fin 512) (e : Fin 256), j = ix3 u q e := ⟨j 0, j 1, j 2, eq_ix3 j⟩
  obtain rfl : u = 0 := Subsingleton.elim _ _
  show (outsAt0 m c t.val t.isLt).1 (ix3 (0 : Fin 1) q e) = result m c (((cfg0.win 9).blk t).view.emb (ix3 (0 : Fin 1) q e))
  have hemb : ((cfg0.win 9).blk t).view.emb (ix3 (0 : Fin 1) q e) = ix3 (batchOf t) (rowOf t q) e := funext fun a => Fin.ext (by
    have hN : t.val < 32 := lt_of_lt_of_eq t.isLt (show cfg0.N = 32 from N_0)
    obtain ⟨f0, f1, f2, f3, f4, f5, f6, f7, f8, f9, f10, f11, f12, f13, f14, f15, f16, f17, f18, f19, f20, f21, f22, f23⟩ := idx_facts t
    match a with
    | ⟨0, _⟩ => show win0_9.index t (0 : Fin 3) * 1 + 1 * 0 = t.val / 4; omega
    | ⟨1, _⟩ => show win0_9.index t (1 : Fin 3) * 512 + 1 * q.val = 512 * (t.val % 4) + q.val; omega
    | ⟨2, _⟩ => show win0_9.index t (2 : Fin 3) * 256 + 1 * e.val = e.val; omega)
  rw [hemb, out_eq m c t]
  refine (Payload.attn_apply (iblk m c 0 t) (iblk m c 3 t) (iblk m c 4 t) _ _ q e).trans ?_
  show _ = attend (fun k => scores (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (batchOf t) (rowOf t q) k)
      (fun k => linear (m ((c : Thread nD τ).loc main_arg2)) (m ((c : Thread nD τ).loc main_arg7)) (m ((c : Thread nD τ).loc main_arg8)) (batchOf t) k e)
  refine congrArg₂ attend (funext fun k => ?_) (funext fun k => scratchV_eq m c t.val t rfl k e)
  refine congrArg (· * invScale) (Finset.sum_congr rfl fun e' _ => congrArg₂ (· * ·) ?_ (scratchK_eq m c t.val t rfl k e'))
  exact congrArg₂ (· + ·) (Finset.sum_congr rfl fun d _ => congrArg₂ (· * ·) (query_block m c t q d) (wq_block m c t d e')) (bq_block m c t e')

/-- An index of the array is in point t's block iff each coordinate is in the block's range on its axis. -/
theorem mem_blk (t : Fin cfg0.N) (i : S8x2048x256.Idx) :
    i ∈ ((cfg0.win 9).blk t).view.set ↔ ∀ a : Fin 3, win0_9.index t a * S1x512x256.size a ≤ (i a).val ∧ (i a).val < win0_9.index t a * S1x512x256.size a + S1x512x256.size a := by
  show i ∈ ((View.whole main_v9).slice (win0_9.rect t)).set ↔ _
  rw [View.set_slice_whole, Rect.mem_set_unit]
  exact Iff.rfl

/-- The 32 blocks tile the array: row r of batch element b lies in the block of point 4·b + r / 512. -/
theorem cover (i : S8x2048x256.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 256 := (i 2).isLt
  have hlt : 4 * (i 0).val + (i 1).val / 512 < cfg0.N := lt_of_lt_of_eq (by omega) (show cfg0.N = 32 from N_0).symm
  let t : Fin cfg0.N := ⟨4 * (i 0).val + (i 1).val / 512, hlt⟩
  have htv : t.val = 4 * (i 0).val + (i 1).val / 512 := rfl
  refine ⟨t, flush0_9 t, ?_⟩
  rw [mem_blk]
  obtain ⟨f0, f1, f2, f3, f4, f5, f6, f7, f8, f9, f10, f11, f12, f13, f14, f15, f16, f17, f18, f19, f20, f21, f22, f23⟩ := idx_facts t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 256 ≤ (i 2).val ∧ (i 2).val < win0_9.index t (2 : Fin 3) * 256 + 256; omega

/-- THE ARRAY after the run is the result array. -/
theorem final (c : Dev nD) : (dats m 0 c).arrAt 9 cfg0.N = result m c :=
  (dats m 0 c).arrAt_eq_of_cover 9 (result m c) (fun t _ => flushed_eq m c t) cover

/-- The kernel's run re-posted: the output array at the specification's function of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Attn

end
-- ==== Proof.lean ====
/-
  The proof of `Cert.Claim`: a fused cross-attention kernel against its reference, on the extended reals.

  Both programs compute, for every batch element, query row and output feature,
      out = ∑ₖ softmax(s)ₖ · Vₖ        s k = (Q · Kₖ) / D,      D = 11863283 / 2^20, the float nearest √128,
  over three linear layers Q, K, V of the nine arguments. They differ in three ways, none of which survives at the
  exact instance:
    * the kernel multiplies the scores by a folded reciprocal where the reference divides. The kernel's constant is
      named the exact rational 2^20 / 11863283 — the reciprocal of the reference's printed divisor 11863283 / 2^20 —
      and dividing by a nonzero real is multiplying by its reciprocal, on every extended real;
    * the kernel projects the keys and values of a batch element once, into scratch buffers it keeps across that
      element's four query tiles, and changes formats on the way; format changes are the identity, and the scratch
      holds the same projection at all four tiles (an induction on the grid point);
    * the kernel divides by the softmax normaliser ONCE, after the weighted sum of the values, where the reference
      normalises every weight first. Moving the division across the sum is distributivity, which the extended reals
      have only for a nonnegative finite factor: here the precondition is used. Finite inputs make every score a
      real number, so the row's normaliser is a positive real and its reciprocal a nonnegative finite factor. The
      value side needs no finiteness.

  The three frames are the generated ones (the reference's: its run with the result dropped). The one rewritten constant,
  the named scale, is its rule's statement. The kernel's result array is read off its frame run point
  by point (KernelValue), the reference's off its run stage by stage (RefValue), and the law that joins them is
  SoftmaxLaw over Spec's definitions.
-/
import proofs.«147305_j49606872269322_2_alg».proof.Defs
import proofs.«147305_j49606872269322_2_alg».proof.Proof.Gen.Kernel
import proofs.«147305_j49606872269322_2_alg».proof.Proof.Gen.Kernel.Frame
import proofs.«147305_j49606872269322_2_alg».proof.Proof.Gen.KernelIdeal
import proofs.«147305_j49606872269322_2_alg».proof.Proof.Gen.KernelIdeal.Frame
import proofs.«147305_j49606872269322_2_alg».proof.Proof.Gen.KernelIdeal.Value
import proofs.«147305_j49606872269322_2_alg».proof.Proof.Gen.ReferenceIdeal
import proofs.«147305_j49606872269322_2_alg».proof.Proof.Gen.ReferenceIdeal.Run
import proofs.«147305_j49606872269322_2_alg».proof.Proof.Gen.ReferenceIdeal.Read
import proofs.«147305_j49606872269322_2_alg».proof.Proof.Gen.Pre_finite_inputs
import proofs.«147305_j49606872269322_2_alg».proof.Proof.FiniteInputs
import proofs.«147305_j49606872269322_2_alg».proof.Proof.SoftmaxLaw
import proofs.«147305_j49606872269322_2_alg».proof.Proof.RefValue
import proofs.«147305_j49606872269322_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite: the score scale's constant is named the reciprocal of the reference's divisor, and the printed
    constant is that value at the exact instance. -/
theorem preserves : Cert.preserves_Kernel_KernelIdeal :=
  IdealRules.named_const.statement Cert.KernelIdeal.κ "inv_scale" .f32 0x3DB504F3#32 ((1048576 / 11863283 : ℝ) : EReal) rfl

/-- From memories that agree on the nine arguments, all finite, both programs end with the same result array: the
    kernel's is the specification's `G` (KernelValue), the reference's the same sum with every weight normalised first
    (RefValue), and the two arrangements agree because the six arrays the scores depend on are real (SoftmaxLaw). -/
theorem algebraic : Cert.algebraic_KernelIdeal_ReferenceIdeal := by
  intro m ρ m' ρ' hpre hagree
  refine ⟨fun c => Cert.KernelIdeal.Attn.result m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, -, -⟩ := Cert.Proof.FiniteInputs.real_of_fn _ _ _ _ _ _ _ _ _ (hpre c)
  obtain ⟨e0, e1, e2, e3, e4, e5, e6, e7, e8⟩ := hagree c
  rw [Cert.ReferenceIdeal.Read.val_main_v26_eq, Cert.CrossAttn.Ref.ref_value, e0, e1, e2, e3, e4, e5, e6, e7, e8]
  exact Cert.CrossAttn.Gref_eq_G _ _ _ _ _ _ _ _ _ h0 h1 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
